-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S800000 : Shape := ⟨1, ![800000]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x256 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x800000 32) (main_arg2 : FVec F S800000 .f32) (main_arg3 : FVec F S128x256 .f32) (main_arg4 : FVec F S128 .f32) (main_arg5 : FVec F S128x256 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x800000 : Shape := ⟨2, ![2, 800000]⟩
abbrev S800000 : Shape := ⟨1, ![800000]⟩
abbrev S128x256 : Shape := ⟨2, ![128, 256]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S128x128 : Shape := ⟨2, ![128, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 75
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x1, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S100000x128, .f32⟩
  | .hbm, ⟨25, _⟩ => ⟨S800000x1, .i32⟩
  | .hbm, ⟨26, _⟩ => ⟨S100000x128, .f32⟩
  | .hbm, ⟨27, _⟩ => ⟨S_, .f32⟩
  | .hbm, ⟨28, _⟩ => ⟨S100000, .f32⟩
  | .hbm, ⟨29, _⟩ => ⟨S800000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S1x128, .f32⟩
  | .hbm, ⟨42, _⟩ => ⟨S100000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S800000x1, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S100000x128, .f32⟩
  | .hbm, ⟨57, _⟩ => ⟨S800000x1, .i32⟩
  | .hbm, ⟨58, _⟩ => ⟨S100000x128, .f32⟩
  | .hbm, ⟨59, _⟩ => ⟨S_, .f32⟩
  | .hbm, ⟨60, _⟩ => ⟨S100000, .f32⟩
  | .hbm, ⟨61, _⟩ => ⟨S800000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S128x128, .f32⟩
  | .hbm, ⟨70, _⟩ => ⟨S128x128, .f32⟩
  | .hbm, ⟨71, _⟩ => ⟨S128x128, .f32⟩
  | .hbm, ⟨72, _⟩ => ⟨S128x128, .f32⟩
  | .hbm, ⟨73, _⟩ => ⟨S1x128, .f32⟩
  | .hbm, ⟨74, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_3 : Ref sig .tc := ⟨.hbm, 43, rfl⟩
abbrev main_v31 : Ref sig .tc := ⟨.hbm, 44, rfl⟩
abbrev main_v32 : Ref sig .tc := ⟨.hbm, 45, rfl⟩
abbrev main_c_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S128x256_S128x128_0_0 : S128x256.Slices ![0, 0] S128x128
  slices_S128x256_S128x128_0_128 : S128x256.Slices ![0, 128] S128x128
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S800000 : Shape := ⟨1, ![800000]⟩
abbrev S128x256 : Shape := ⟨2, ![128, 256]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S100000x256 : Shape := ⟨2, ![100000, 256]⟩
abbrev S256x128 : Shape := ⟨2, ![256, 128]⟩
abbrev S1x128 : Shape := ⟨2, ![1, 128]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x1, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S100000x128, .f32⟩
  | .hbm, ⟨25, _⟩ => ⟨S800000x1, .i32⟩
  | .hbm, ⟨26, _⟩ => ⟨S100000x128, .f32⟩
  | .hbm, ⟨27, _⟩ => ⟨S_, .f32⟩
  | .hbm, ⟨28, _⟩ => ⟨S100000, .f32⟩
  | .hbm, ⟨29, _⟩ => ⟨S800000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x256, .f32⟩
  | .hbm, ⟨38, _⟩ => ⟨S256x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S800000x1, .f32⟩
  | .hbm, ⟨56, _⟩ => ⟨S800000x128, .f32⟩
  | .hbm, ⟨57, _⟩ => ⟨S800000x128, .f32⟩
  | .hbm, ⟨58, _⟩ => ⟨S_, .f32⟩
  | .hbm, ⟨59, _⟩ => ⟨S100000x128, .f32⟩
  | .hbm, ⟨60, _⟩ => ⟨S800000x1, .i32⟩
  | .hbm, ⟨61, _⟩ => ⟨S100000x128, .f32⟩
  | .hbm, ⟨62, _⟩ => ⟨S_, .f32⟩
  | .hbm, ⟨63, _⟩ => ⟨S100000, .f32⟩
  | .hbm, ⟨64, _⟩ => ⟨S800000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x256, .f32⟩
  | .hbm, ⟨73, _⟩ => ⟨S256x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000, .f32⟩
  | .hbm, ⟨84, _⟩ => ⟨S100000x1, .f32⟩
  | .hbm, ⟨85, _⟩ => ⟨S100000x1, .f32⟩
  | .hbm, ⟨86, _⟩ => ⟨S_, .f32⟩
  | .hbm, ⟨87, _⟩ => ⟨S100000x1, .f32⟩
  | .hbm, ⟨88, _⟩ => ⟨S100000x1, .f32⟩
  | .hbm, ⟨89, _⟩ => ⟨S100000x128, .f32⟩
  | .hbm, ⟨90, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_c_3 : Ref sig .tc := ⟨.hbm, 46, rfl⟩
abbrev main_v32 : Ref sig .tc := ⟨.hbm, 47, rfl⟩
abbrev main_v33 : Ref sig .tc := ⟨.hbm, 48, rfl⟩
abbrev main_c_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_call1_cst : Ref sig .tc := ⟨.hbm, 78, rfl⟩
abbrev main_call1_v0 : Ref sig .tc := ⟨.hbm, 79, rfl⟩
abbrev main_v59 : Ref sig .tc := ⟨.hbm, 80, rfl⟩
abbrev main_call2_v0 : Ref sig .tc := ⟨.hbm, 81, rfl⟩
abbrev main_call2_cst : Ref sig .tc := ⟨.hbm, 82, rfl⟩
abbrev main_call2_v1 : Ref sig .tc := ⟨.hbm, 83, rfl⟩
abbrev main_call2_v2 : Ref sig .tc := ⟨.hbm, 84, rfl⟩
abbrev main_v60 : Ref sig .tc := ⟨.hbm, 85, rfl⟩
abbrev main_cst_8 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x256_S256x128_S100000x128_1_0_0_1_n_n_wf : DotDims.WF S100000x256 S256x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KernelRun.lean ====
/-
  The idealized kernel's run with its result named.

  The program is four segments: host operations, the first kernel's region, host operations, the second kernel's
  region. Every weakly fair execution terminates without a fault; at the end every buffer that outlives the regions
  holds the last boundary's contents, in particular the result buffer holds what the second region's write-backs
  leave in it and the seven argument buffers hold what they held at launch.
-/
import proofs.«100640_j50766513439458_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v57) = W4 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v57 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Run

end
-- ==== Proof.SageSpec.lean ====
/-
  Two graph-convolution layers followed by a row normalisation, entry by entry over the extended reals.

  One layer takes the node features `h : [M, 128]`, the weighted mean of each node's neighbours `n : [M, 128]`,
  a weight matrix `W : [128, 256]` whose first 128 columns act on the node's own features and whose last 128
  columns act on the neighbour mean, and a bias `b : [128]`:

      layer h n W b (p, q) = max ((∑ k, h (p, k) * W (q, k)) + (∑ k, n (p, k) * W (q, 128 + k)) + b q) 0 .

  The normalisation divides each row by the larger of its Euclidean length and a small positive constant:

      unitRows g (p, q) = g (p, q) / max (sqrt (∑ k, g (p, k) * g (p, k))) ε .

  The constants `0` and `ε` are kept as the float words they are written with (the same words on every side, so
  their values are never needed; only the zero word is used as the neutral element of a sum).

  A product of a row with all 256 columns of `W` is the sum of the products with the two halves
  (`sum_two_halves`): a finite sum over `Fin (128 + 128)` split at 128, which holds in any commutative monoid and so
  on the extended reals with no finiteness assumption.
-/
import Idealize.ShloMosaic.PureOps.Ideal
import Idealize.ShloMosaic.Lib.ValueIdx

noncomputable section

namespace Cert.SageSpec

open Idealize.ShloMosaic Idealize.ShloMosaic.ValueIdx

/-- The float word zero read at the ideal instance. -/
abbrev zeroWord : EReal := Ideal.ofBits .f32 0x00000000#32
/-- The float word of the small positive constant (written 1e-12 in the sources) read at the ideal instance. -/
abbrev epsWord : EReal := Ideal.ofBits .f32 0x2B8CBCCC#32

/-- Column `128 + k` of a 256-column array. -/
def hi (k : Fin 128) : Fin 256 := ⟨128 + k.val, by have := k.isLt; omega⟩
/-- Column `k` of a 256-column array, for `k` below 128. -/
def lo (k : Fin 128) : Fin 256 := ⟨k.val, by have := k.isLt; omega⟩

/-- One layer: both halves of the weight matrix applied, the bias added, negative entries cut to zero. -/
def layer {M : ℕ} (h n : (⟨2, ![M, 128]⟩ : Shape).Idx → EReal) (W : (⟨2, ![128, 256]⟩ : Shape).Idx → EReal)
    (b : (⟨1, ![128]⟩ : Shape).Idx → EReal) : (⟨2, ![M, 128]⟩ : Shape).Idx → EReal := fun i =>
  max (((∑ k : Fin 128, h (ix2 (i 0) k) * W (ix2 (i 1) (lo k)))
    + ∑ k : Fin 128, n (ix2 (i 0) k) * W (ix2 (i 1) (hi k))) + b (ix1 (i 1))) zeroWord

theorem layer_apply {M : ℕ} (h n : (⟨2, ![M, 128]⟩ : Shape).Idx → EReal) (W : (⟨2, ![128, 256]⟩ : Shape).Idx → EReal)
    (b : (⟨1, ![128]⟩ : Shape).Idx → EReal) (p : Fin M) (q : Fin 128) :
    layer h n W b (ix2 p q)
      = max (((∑ k : Fin 128, h (ix2 p k) * W (ix2 q (lo k)))
        + ∑ k : Fin 128, n (ix2 p k) * W (ix2 q (hi k))) + b (ix1 q)) zeroWord := rfl

/-- Each row divided by the larger of its Euclidean length and the small constant. -/
def unitRows {M : ℕ} (g : (⟨2, ![M, 128]⟩ : Shape).Idx → EReal) : (⟨2, ![M, 128]⟩ : Shape).Idx → EReal := fun i =>
  Ideal.div (g i) (max (Ideal.sqrt (∑ k : Fin 128, g (ix2 (i 0) k) * g (ix2 (i 0) k))) epsWord)

theorem unitRows_apply {M : ℕ} (g : (⟨2, ![M, 128]⟩ : Shape).Idx → EReal) (p : Fin M) (q : Fin 128) :
    unitRows g (ix2 p q)
      = Ideal.div (g (ix2 p q)) (max (Ideal.sqrt (∑ k : Fin 128, g (ix2 p k) * g (ix2 p k))) epsWord) := rfl

/-- A sum over 256 positions is the sum over the first 128 plus the sum over the last 128. -/
theorem sum_two_halves {α : Type} [AddCommMonoid α] (f : Fin 256 → α) :
    ∑ k : Fin 256, f k = (∑ k : Fin 128, f (lo k)) + ∑ k : Fin 128, f (hi k) := by
  have e := Fin.sum_univ_add (M := α) (a := 128) (b := 128) f
  refine e.trans ?_
  refine congrArg₂ (· + ·) (Finset.sum_congr rfl fun k _ => congrArg f (Fin.ext ?_))
    (Finset.sum_congr rfl fun k _ => congrArg f (Fin.ext ?_))
  · rfl
  · rfl

end Cert.SageSpec

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.KernelPayload.lean ====
/-
  What one grid point of each kernel computes, entry by entry over the extended reals.

  Both kernels hold a block of 5000 rows: `x0` the rows' own features, `x1` the rows' neighbour means, `x2` and
  `x3` the two 128×128 weight blocks already transposed (so entry `(k, q)` multiplies feature `k` into output `q`),
  and `x4` the bias as a `[1, 128]` row. A change of float format is the identity on extended reals, a shape cast to
  the same shape is the identity, and a matrix product into the zero accumulator is the plain contraction sum, so

      blockLayer x0 x1 x2 x3 x4 (p, q) = max ((∑ k, x0 (p, k) * x2 (k, q)) + (∑ k, x1 (p, k) * x3 (k, q)) + x4 (0, q)) 0 .

  The first kernel stores `blockLayer`; the second stores each row of it divided by the larger of the row's
  Euclidean length and the small constant (`SageSpec.unitRows`): the row sum of squares runs over the 128 columns
  of the row itself, so it is the same whether read in the block or in the whole array.
-/
import proofs.«100640_j50766513439458_1_alg».proof.Proof.Gen.KernelIdeal.Skeleton
import proofs.«100640_j50766513439458_1_alg».proof.Proof.SageSpec
import proofs.«100640_j50766513439458_1_alg».proof.Proof.LibPlainDot
import proofs.«100640_j50766513439458_1_alg».proof.Proof.LibRowReduce
import proofs.«100640_j50766513439458_1_alg».proof.Proof.LibColumns
import proofs.«100640_j50766513439458_1_alg».proof.Proof.LibRegionBlockSpread
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.SageSpec

/-- One layer on a block of rows, with the weight blocks already transposed and the bias as a row. -/
def blockLayer {M : ℕ} (x0 x1 : (⟨2, ![M, 128]⟩ : Shape).Idx → EReal) (x2 x3 : (⟨2, ![128, 128]⟩ : Shape).Idx → EReal)
    (x4 : (⟨2, ![1, 128]⟩ : Shape).Idx → EReal) : (⟨2, ![M, 128]⟩ : Shape).Idx → EReal := fun i =>
  max (((∑ k : Fin 128, x0 (ix2 (i 0) k) * x2 (ix2 k (i 1)))
    + ∑ k : Fin 128, x1 (ix2 (i 0) k) * x3 (ix2 k (i 1))) + x4 (ix2 (0 : Fin 1) (i 1))) zeroWord

theorem blockLayer_apply {M : ℕ} (x0 x1 : (⟨2, ![M, 128]⟩ : Shape).Idx → EReal) (x2 x3 : (⟨2, ![128, 128]⟩ : Shape).Idx → EReal)
    (x4 : (⟨2, ![1, 128]⟩ : Shape).Idx → EReal) (p : Fin M) (q : Fin 128) :
    blockLayer x0 x1 x2 x3 x4 (ix2 p q)
      = max (((∑ k : Fin 128, x0 (ix2 p k) * x2 (ix2 k q))
        + ∑ k : Fin 128, x1 (ix2 p k) * x3 (ix2 k q)) + x4 (ix2 (0 : Fin 1) q)) zeroWord := rfl

/-- A block product with both operands narrowed and the right one cast to its own shape is the contraction sum. -/
theorem product_apply (a : FVec Ideal S5000x128 .f32) (w : FVec Ideal S128x128 .f32) (p : Fin 5000) (q : Fin 128) :
    matmul (F := Ideal) dot_S5000x128_S128x128_S5000x128_1_0_0_1_n_n none (truncf (F := Ideal) .bf16 a bitsLt_bf16_f32)
        (truncf (F := Ideal) .bf16 (shapeCast S128x128 w shapeCasts_S128x128_S128x128) bitsLt_bf16_f32)
        (constant (F := Ideal) S5000x128 .f32 0x00000000#32) (ix2 p q)
      = ∑ k : Fin 128, a (ix2 p k) * w (ix2 k q) := by
  refine (PlainDot.matmul_zero_apply (M := 5000) (K := 128) (N := 128) dot_S5000x128_S128x128_S5000x128_1_0_0_1_n_n rfl none
    (truncf (F := Ideal) .bf16 a bitsLt_bf16_f32)
    (truncf (F := Ideal) .bf16 (shapeCast S128x128 w shapeCasts_S128x128_S128x128) bitsLt_bf16_f32) p q).trans ?_
  refine Finset.sum_congr rfl fun k _ => ?_
  exact congrArg (a (ix2 p k) * ·) (congrFun (shapeCast_self w shapeCasts_S128x128_S128x128) (ix2 k q))

/-- The first kernel's stored value is one layer on the block. -/
theorem pay0_eq (x0 x1 : FVec Ideal S5000x128 .f32) (x2 x3 : FVec Ideal S128x128 .f32) (x4 : FVec Ideal S1x128 .f32) :
    k0_pay1 (F := Ideal) x0 x1 x2 x3 x4 = blockLayer x0 x1 x2 x3 x4 := by
  funext j
  obtain ⟨p, q, rfl⟩ : ∃ (p : Fin 5000) (q : Fin 128), j = ix2 p q := ⟨j 0, j 1, eq_ix2 j⟩
  rw [blockLayer_apply]
  unfold k0_pay1
  refine congrArg₂ max (congrArg₂ (· + ·) (congrArg₂ (· + ·) ?_ ?_) ?_) rfl
  · exact product_apply x0 x2 p q
  · refine (product_apply (shapeCast S5000x128 x1 shapeCasts_S5000x128_S5000x128) x3 p q).trans ?_
    exact Finset.sum_congr rfl fun k _ =>
      congrArg (· * x3 (ix2 k q)) (congrFun (shapeCast_self x1 shapeCasts_S5000x128_S5000x128) (ix2 p k))
  · refine (broadcastTo_1b_ab_apply (a := 5000) (b := 128) (shapeCast S1x128 x4 shapeCasts_S1x128_S1x128) broadcasts_S1x128_S5000x128 p q).trans ?_
    exact congrFun (shapeCast_self x4 shapeCasts_S1x128_S1x128) (ix2 (0 : Fin 1) q)

/-- The layer as the second kernel spells it (its first operand also passes through a cast to its own shape). -/
def layerHead (x0 x1 : FVec Ideal S5000x128 .f32) (x2 x3 : FVec Ideal S128x128 .f32) (x4 : FVec Ideal S1x128 .f32) :
    FVec Ideal S5000x128 .f32 :=
  maximumf (F := Ideal) (addf (F := Ideal) (addf (F := Ideal)
      (matmul (F := Ideal) dot_S5000x128_S128x128_S5000x128_1_0_0_1_n_n none
        (truncf (F := Ideal) .bf16 (shapeCast S5000x128 x0 shapeCasts_S5000x128_S5000x128) bitsLt_bf16_f32)
        (truncf (F := Ideal) .bf16 (shapeCast S128x128 x2 shapeCasts_S128x128_S128x128) bitsLt_bf16_f32) (constant (F := Ideal) S5000x128 .f32 0x00000000#32))
      (matmul (F := Ideal) dot_S5000x128_S128x128_S5000x128_1_0_0_1_n_n none
        (truncf (F := Ideal) .bf16 (shapeCast S5000x128 x1 shapeCasts_S5000x128_S5000x128) bitsLt_bf16_f32)
        (truncf (F := Ideal) .bf16 (shapeCast S128x128 x3 shapeCasts_S128x128_S128x128) bitsLt_bf16_f32) (constant (F := Ideal) S5000x128 .f32 0x00000000#32)))
    (broadcastTo S5000x128 (shapeCast S1x128 x4 shapeCasts_S1x128_S1x128) broadcasts_S1x128_S5000x128))
    (broadcast S5000x128 (Scalar.ofBits (F := Ideal) .f32 0x00000000#32))

/-- The row normalisation as the second kernel spells it, on any block `g`. -/
def normTail (g : FVec Ideal S5000x128 .f32) : FVec Ideal S5000x128 .f32 :=
  divf (F := Ideal) g (broadcastTo S5000x128
    (maximumf (F := Ideal) (sqrt (F := Ideal) (shapeCast S5000x1
        (multiReduction (F := Ideal) .add [1] S5000 (mulf (F := Ideal) g g) 0x00000000#32 reduces_S5000x128_S5000 (.inl rfl) rfl) shapeCasts_S5000_S5000x1))
      (broadcast S5000x1 (Scalar.ofBits (F := Ideal) .f32 0x2B8CBCCC#32)))
    broadcasts_S5000x1_S5000x128)

theorem pay1_split (x0 x1 : FVec Ideal S5000x128 .f32) (x2 x3 : FVec Ideal S128x128 .f32) (x4 : FVec Ideal S1x128 .f32) :
    k1_pay1 (F := Ideal) x0 x1 x2 x3 x4 = normTail (layerHead x0 x1 x2 x3 x4) := rfl

theorem layerHead_eq (x0 x1 : FVec Ideal S5000x128 .f32) (x2 x3 : FVec Ideal S128x128 .f32) (x4 : FVec Ideal S1x128 .f32) :
    layerHead x0 x1 x2 x3 x4 = blockLayer x0 x1 x2 x3 x4 := by
  funext j
  obtain ⟨p, q, rfl⟩ : ∃ (p : Fin 5000) (q : Fin 128), j = ix2 p q := ⟨j 0, j 1, eq_ix2 j⟩
  rw [blockLayer_apply]
  unfold layerHead
  refine congrArg₂ max (congrArg₂ (· + ·) (congrArg₂ (· + ·) ?_ ?_) ?_) rfl
  · refine (product_apply (shapeCast S5000x128 x0 shapeCasts_S5000x128_S5000x128) x2 p q).trans ?_
    exact Finset.sum_congr rfl fun k _ =>
      congrArg (· * x2 (ix2 k q)) (congrFun (shapeCast_self x0 shapeCasts_S5000x128_S5000x128) (ix2 p k))
  · refine (product_apply (shapeCast S5000x128 x1 shapeCasts_S5000x128_S5000x128) x3 p q).trans ?_
    exact Finset.sum_congr rfl fun k _ =>
      congrArg (· * x3 (ix2 k q)) (congrFun (shapeCast_self x1 shapeCasts_S5000x128_S5000x128) (ix2 p k))
  · refine (broadcastTo_1b_ab_apply (a := 5000) (b := 128) (shapeCast S1x128 x4 shapeCasts_S1x128_S1x128) broadcasts_S1x128_S5000x128 p q).trans ?_
    exact congrFun (shapeCast_self x4 shapeCasts_S1x128_S1x128) (ix2 (0 : Fin 1) q)

theorem normTail_eq (g : FVec Ideal S5000x128 .f32) : normTail g = unitRows g := by
  funext j
  obtain ⟨p, q, rfl⟩ : ∃ (p : Fin 5000) (q : Fin 128), j = ix2 p q := ⟨j 0, j 1, eq_ix2 j⟩
  rw [unitRows_apply]
  unfold normTail
  refine congrArg (Ideal.div (g (ix2 p q))) ?_
  refine (broadcastTo_a1_ab_apply (a := 5000) (b := 128) _ broadcasts_S5000x1_S5000x128 p q).trans ?_
  refine congrArg₂ max (congrArg Ideal.sqrt ?_) rfl
  refine (RowReduce.shapeCast_a_a1_apply (m := 5000) _ shapeCasts_S5000_S5000x1 p (0 : Fin 1)).trans ?_
  exact RowReduce.multiReduction_add_row (m := 5000) (n := 128) (mulf g g) 0x00000000#32 reduces_S5000x128_S5000 (.inl rfl) rfl p

/-- The second kernel's stored value is the layer on the block with its rows normalised. -/
theorem pay1_eq (x0 x1 : FVec Ideal S5000x128 .f32) (x2 x3 : FVec Ideal S128x128 .f32) (x4 : FVec Ideal S1x128 .f32) :
    k1_pay1 (F := Ideal) x0 x1 x2 x3 x4 = unitRows (blockLayer x0 x1 x2 x3 x4) := by
  rw [pay1_split, layerHead_eq, normTail_eq]

end Cert.KernelIdeal.Body

end
-- ==== Proof.KernelBlocks.lean ====
/-
  From the blocks each grid point writes back to the whole output array, for both kernels.

  Each kernel runs over 20 grid points; point `t` reads rows `5000 t … 5000 t + 4999` of the feature array and of the
  neighbour-mean array, the whole of the two weight blocks and of the bias row, and writes rows
  `5000 t … 5000 t + 4999` of the output. An output entry `(r, q)` depends only on row `r` of the two row-blocked
  inputs (the layer contracts over the 128 columns of that row, and the normalisation sums the squares of that same
  output row), so the block that point `t` writes is the restriction to its rows of ONE function of the whole arrays:
  `blockLayer` for the first kernel, `unitRows (blockLayer …)` for the second. The 20 row ranges cover all 100000
  rows (row `r` lies in the block of point `r / 5000`), so after the run the output array is that function.

  Everything is stated at an arbitrary valuation `V` of the buffers at the region's entry.
-/
import proofs.«100640_j50766513439458_1_alg».proof.Proof.Gen.KernelIdeal.Frame
import proofs.«100640_j50766513439458_1_alg».proof.Proof.KernelPayload
import Idealize.ShloMosaic.Lib.Pipeline.Value

set_option maxRecDepth 16384

noncomputable section

namespace Cert.KernelIdeal.Blocks

open Cert.KernelIdeal Cert.KernelIdeal.Gen Cert.KernelIdeal.Body Cert.SageSpec
open Idealize.ShloMosaic Idealize.ShloMosaic.TcCoe Idealize.ShloMosaic.ValueIdx Idealize.SL.Sem
open Idealize.ShloMosaic.Pipeline (Dat)

/-! ## Row-locality of the two functions -/

/-- The layer at a row of a block equals the layer at the corresponding row of the whole arrays. -/
theorem blockLayer_shift {M m : ℕ} (A0 A1 : (⟨2, ![M, 128]⟩ : Shape).Idx → EReal) (x0 x1 : (⟨2, ![m, 128]⟩ : Shape).Idx → EReal)
    (x2 x3 : (⟨2, ![128, 128]⟩ : Shape).Idx → EReal) (x4 : (⟨2, ![1, 128]⟩ : Shape).Idx → EReal)
    (r : Fin m) (R : Fin M) (q : Fin 128)
    (h0 : ∀ k : Fin 128, x0 (ix2 r k) = A0 (ix2 R k)) (h1 : ∀ k : Fin 128, x1 (ix2 r k) = A1 (ix2 R k)) :
    blockLayer x0 x1 x2 x3 x4 (ix2 r q) = blockLayer A0 A1 x2 x3 x4 (ix2 R q) := by
  rw [blockLayer_apply, blockLayer_apply]
  simp only [h0, h1]

/-- The normalised rows likewise: the row's own entries decide its length. -/
theorem unitRows_shift {M m : ℕ} (G : (⟨2, ![M, 128]⟩ : Shape).Idx → EReal) (g : (⟨2, ![m, 128]⟩ : Shape).Idx → EReal)
    (r : Fin m) (R : Fin M) (q : Fin 128) (hg : ∀ k : Fin 128, g (ix2 r k) = G (ix2 R k)) :
    unitRows g (ix2 r q) = unitRows G (ix2 R q) := by
  rw [unitRows_apply, unitRows_apply]
  simp only [hg]

variable (V : (c : Dev nD) → (b : Ref sig .tc) → Buf (Elt Ideal) ((c : Thread nD τ).loc b))

theorem hz : (![0, 0] : Fin 2 → Nat) = fun _ => 0 := funext fun a => by fin_cases a <;> rfl

/-! ## The first kernel -/

/-- What the first kernel's output array holds after its run, from the arrays its windows are over. -/
def out0 (c : Dev nD) : S100000x128.Idx → EReal :=
  blockLayer (M := 100000) (V c main_arg0) (V c main_v24) (V c main_v27) (V c main_v28) (V c main_v29)

/-- The printed index maps over the 20 grid points: the row-blocked windows move with the point, the others stay. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of `out0`. -/
theorem flushed0_eq (c : Dev nD) (t : Fin cfg0.N) :
    (dat0 V c).flushed 5 t = ((cfg0.win 5).blk t).view.read (Elt Ideal) (out0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [pay0_eq]
  obtain ⟨e00, e01, e10, e11, e20, e21, e30, e31, e40, e41, e50, e51⟩ := idx0 t
  have w2 : iblk0 V c 2 t = V c main_v27 := funext fun y => congrArg (V c main_v27) (funext fun a => Fin.ext (by
    match a with
    | ⟨0, _⟩ => show win0_2.index t (0 : Fin 2) * 128 + 1 * (y 0).val = (y 0).val; omega
    | ⟨1, _⟩ => show win0_2.index t (1 : Fin 2) * 128 + 1 * (y 1).val = (y 1).val; omega))
  have w3 : iblk0 V c 3 t = V c main_v28 := funext fun y => congrArg (V c main_v28) (funext fun a => Fin.ext (by
    match a with
    | ⟨0, _⟩ => show win0_3.index t (0 : Fin 2) * 128 + 1 * (y 0).val = (y 0).val; omega
    | ⟨1, _⟩ => show win0_3.index t (1 : Fin 2) * 128 + 1 * (y 1).val = (y 1).val; omega))
  have w4 : iblk0 V c 4 t = V c main_v29 := funext fun y => congrArg (V c main_v29) (funext fun a => Fin.ext (by
    match a with
    | ⟨0, _⟩ => show win0_4.index t (0 : Fin 2) * 1 + 1 * (y 0).val = (y 0).val; omega
    | ⟨1, _⟩ => show win0_4.index t (1 : Fin 2) * 128 + 1 * (y 1).val = (y 1).val; omega))
  rw [w2, w3, w4]
  funext j
  obtain ⟨r, q, rfl⟩ : ∃ (r : Fin 5000) (q : Fin 128), j = ix2 r q := ⟨j 0, j 1, eq_ix2 j⟩
  have hR : t.val * 5000 + r.val < 100000 := by
    have ht : t.val < 20 := Nat.lt_of_lt_of_eq (show t.val < grid0.N from t.isLt) N_0
    have := r.isLt; omega
  have hemb : ((cfg0.win 5).blk t).view.emb (ix2 r q) = ix2 (⟨t.val * 5000 + r.val, hR⟩ : Fin 100000) q :=
    funext fun a => Fin.ext (by
      match a with
      | ⟨0, _⟩ => show win0_5.index t (0 : Fin 2) * 5000 + 1 * r.val = t.val * 5000 + r.val; omega
      | ⟨1, _⟩ => show win0_5.index t (1 : Fin 2) * 128 + 1 * q.val = q.val; omega)
  show blockLayer (iblk0 V c 0 t) (iblk0 V c 1 t) (V c main_v27) (V c main_v28) (V c main_v29) (ix2 r q)
    = out0 V c (((cfg0.win 5).blk t).view.emb (ix2 r q))
  rw [hemb]
  unfold out0
  refine blockLayer_shift (M := 100000) (m := 5000) (V c main_arg0) (V c main_v24) (iblk0 V c 0 t) (iblk0 V c 1 t)
    (V c main_v27) (V c main_v28) (V c main_v29) r ⟨t.val * 5000 + r.val, hR⟩ q (fun k => ?_) (fun k => ?_)
  · exact congrArg (V c main_arg0) (funext fun a => Fin.ext (by
      match a with
      | ⟨0, _⟩ => show win0_0.index t (0 : Fin 2) * 5000 + 1 * r.val = t.val * 5000 + r.val; omega
      | ⟨1, _⟩ => show win0_0.index t (1 : Fin 2) * 128 + 1 * k.val = k.val; omega))
  · exact congrArg (V c main_v24) (funext fun a => Fin.ext (by
      match a with
      | ⟨0, _⟩ => show win0_1.index t (0 : Fin 2) * 5000 + 1 * r.val = t.val * 5000 + r.val; omega
      | ⟨1, _⟩ => show win0_1.index t (1 : Fin 2) * 128 + 1 * k.val = k.val; omega))

/-- An index of the output array is in point `t`'s block iff each coordinate is in the block's range. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v30).slice (win0_5.rect t)).set ↔ _
  rw [View.set_slice_whole, Rect.mem_set_unit]
  exact Iff.rfl

/-- Every row lies in the block of the point `row / 5000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 5000 < cfg0.N := by rw [show cfg0.N = 20 from N_0]; omega
  refine ⟨⟨(i 0).val / 5000, hN⟩, flush0_5 _, ?_⟩
  obtain ⟨-, -, -, -, -, -, -, -, -, -, e50, e51⟩ := idx0 ⟨(i 0).val / 5000, hN⟩
  rw [mem_blk0]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, hN⟩ (1 : Fin 2) * 128 ≤ (i 1).val ∧ (i 1).val < win0_5.index ⟨(i 0).val / 5000, hN⟩ (1 : Fin 2) * 128 + 128
    rw [e51]; omega

/-- The first kernel's output array after its run. -/
theorem final0 (c : Dev nD) : (dat0 V c).arrAt 5 cfg0.N = out0 V c :=
  (dat0 V c).arrAt_eq_of_cover 5 (out0 V c) (fun t _ => flushed0_eq V c t) (cover0)

/-! ## The second kernel -/

/-- What the second kernel's output array holds after its run, from the arrays its windows are over. -/
def out1 (c : Dev nD) : S100000x128.Idx → EReal :=
  unitRows (blockLayer (M := 100000) (V c main_v30) (V c main_v51) (V c main_v54) (V c main_v55) (V c main_v56))

/-- The printed index maps over the 20 grid points: the row-blocked windows move with the point, the others stay. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `out1`. -/
theorem flushed1_eq (c : Dev nD) (t : Fin cfg1.N) :
    (dat1 V c).flushed 5 t = ((cfg1.win 5).blk t).view.read (Elt Ideal) (out1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [pay1_eq]
  obtain ⟨e00, e01, e10, e11, e20, e21, e30, e31, e40, e41, e50, e51⟩ := idx1 t
  have w2 : iblk1 V c 2 t = V c main_v54 := funext fun y => congrArg (V c main_v54) (funext fun a => Fin.ext (by
    match a with
    | ⟨0, _⟩ => show win1_2.index t (0 : Fin 2) * 128 + 1 * (y 0).val = (y 0).val; omega
    | ⟨1, _⟩ => show win1_2.index t (1 : Fin 2) * 128 + 1 * (y 1).val = (y 1).val; omega))
  have w3 : iblk1 V c 3 t = V c main_v55 := funext fun y => congrArg (V c main_v55) (funext fun a => Fin.ext (by
    match a with
    | ⟨0, _⟩ => show win1_3.index t (0 : Fin 2) * 128 + 1 * (y 0).val = (y 0).val; omega
    | ⟨1, _⟩ => show win1_3.index t (1 : Fin 2) * 128 + 1 * (y 1).val = (y 1).val; omega))
  have w4 : iblk1 V c 4 t = V c main_v56 := funext fun y => congrArg (V c main_v56) (funext fun a => Fin.ext (by
    match a with
    | ⟨0, _⟩ => show win1_4.index t (0 : Fin 2) * 1 + 1 * (y 0).val = (y 0).val; omega
    | ⟨1, _⟩ => show win1_4.index t (1 : Fin 2) * 128 + 1 * (y 1).val = (y 1).val; omega))
  rw [w2, w3, w4]
  funext j
  obtain ⟨r, q, rfl⟩ : ∃ (r : Fin 5000) (q : Fin 128), j = ix2 r q := ⟨j 0, j 1, eq_ix2 j⟩
  have hR : t.val * 5000 + r.val < 100000 := by
    have ht : t.val < 20 := Nat.lt_of_lt_of_eq (show t.val < grid1.N from t.isLt) N_1
    have := r.isLt; omega
  have hemb : ((cfg1.win 5).blk t).view.emb (ix2 r q) = ix2 (⟨t.val * 5000 + r.val, hR⟩ : Fin 100000) q :=
    funext fun a => Fin.ext (by
      match a with
      | ⟨0, _⟩ => show win1_5.index t (0 : Fin 2) * 5000 + 1 * r.val = t.val * 5000 + r.val; omega
      | ⟨1, _⟩ => show win1_5.index t (1 : Fin 2) * 128 + 1 * q.val = q.val; omega)
  show unitRows (blockLayer (iblk1 V c 0 t) (iblk1 V c 1 t) (V c main_v54) (V c main_v55) (V c main_v56)) (ix2 r q)
    = out1 V c (((cfg1.win 5).blk t).view.emb (ix2 r q))
  rw [hemb]
  unfold out1
  refine unitRows_shift (M := 100000) (m := 5000) _ _ r ⟨t.val * 5000 + r.val, hR⟩ q (fun k' => ?_)
  refine blockLayer_shift (M := 100000) (m := 5000) (V c main_v30) (V c main_v51) (iblk1 V c 0 t) (iblk1 V c 1 t)
    (V c main_v54) (V c main_v55) (V c main_v56) r ⟨t.val * 5000 + r.val, hR⟩ k' (fun k => ?_) (fun k => ?_)
  · exact congrArg (V c main_v30) (funext fun a => Fin.ext (by
      match a with
      | ⟨0, _⟩ => show win1_0.index t (0 : Fin 2) * 5000 + 1 * r.val = t.val * 5000 + r.val; omega
      | ⟨1, _⟩ => show win1_0.index t (1 : Fin 2) * 128 + 1 * k.val = k.val; omega))
  · exact congrArg (V c main_v51) (funext fun a => Fin.ext (by
      match a with
      | ⟨0, _⟩ => show win1_1.index t (0 : Fin 2) * 5000 + 1 * r.val = t.val * 5000 + r.val; omega
      | ⟨1, _⟩ => show win1_1.index t (1 : Fin 2) * 128 + 1 * k.val = k.val; omega))

/-- An index of the output array is in point `t`'s block iff each coordinate is in the block's range. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v57).slice (win1_5.rect t)).set ↔ _
  rw [View.set_slice_whole, Rect.mem_set_unit]
  exact Iff.rfl

/-- Every row lies in the block of the point `row / 5000`. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 5000 < cfg1.N := by rw [show cfg1.N = 20 from N_1]; omega
  refine ⟨⟨(i 0).val / 5000, hN⟩, flush1_5 _, ?_⟩
  obtain ⟨-, -, -, -, -, -, -, -, -, -, e50, e51⟩ := idx1 ⟨(i 0).val / 5000, hN⟩
  rw [mem_blk1]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hN⟩ (1 : Fin 2) * 128 ≤ (i 1).val ∧ (i 1).val < win1_5.index ⟨(i 0).val / 5000, hN⟩ (1 : Fin 2) * 128 + 128
    rw [e51]; omega

/-- The second kernel's output array after its run. -/
theorem final1 (c : Dev nD) : (dat1 V c).arrAt 5 cfg1.N = out1 V c :=
  (dat1 V c).arrAt_eq_of_cover 5 (out1 V c) (fun t _ => flushed1_eq V c t) (cover1)

end Cert.KernelIdeal.Blocks

end
-- ==== Proof.KernelHost.lean ====
/-
  What the host operations around the two kernels compute, as functions of the argument arrays.

  Before each kernel the host forms, from the node features `x`, the edge list and the edge weights `w`, the weighted
  mean of every node's neighbours: the features of each edge's destination are gathered and multiplied by the edge's
  weight, these messages are added up per source node, and the sum is divided by the larger of the node's total edge
  weight and a small constant (`neighMean`; a negative destination number is first raised by the number of nodes, as
  array indexing does). It also cuts the layer's weight matrix into two halves, transposes each, and reshapes the
  bias to a row. The first kernel reads the argument features; the second reads the first kernel's output, and the
  host forms the second neighbour mean from that output with the very same operations.

  None of these operations is opened here: each buffer's contents at a kernel's entry is stated as the operations'
  composed term and proved by reading the list of host operations back.
-/
import proofs.«100640_j50766513439458_1_alg».proof.Proof.Gen.KernelIdeal.Frame
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-- The source node of every edge: row 0 of the edge list. -/
def srcIds (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- The destination node of every edge: row 1 of the edge list. -/
def dstIds (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- The weighted mean of every node's neighbours, from the features, the edges' ends and the edge weights. -/
def neighMean (x : (⟨S100000x128, .f32⟩ : BufTy).Contents (Elt F)) (s d : (⟨S800000, .i32⟩ : BufTy).Contents (Elt F))
    (w : (⟨S800000, .f32⟩ : BufTy).Contents (Elt F)) : (⟨S100000x128, .f32⟩ : BufTy).Contents (Elt F) :=
  Host.divf
    (Host.scatterAdd scatter_S100000x128_S800000x1_S800000x128_1_0_0_1
      (broadcastInDim S100000x128 ![] bcast_S_S100000x128 (constant (F := F) S_ .f32 0x00000000#32))
      (broadcastInDim S800000x1 ![0] bcast_S800000_S800000x1_0 s)
      (mulf
        (Host.gather gather_S100000x128_S800000x1_S800000x128_1_0_n_n_0_1_1128 x
          (broadcastInDim S800000x1 ![0] bcast_S800000_S800000x1_0
            (select (cmpi .slt d (broadcastInDim S800000 ![] bcast_S_S800000 (constantI S_ 32 0#32)))
              (addi d (broadcastInDim S800000 ![] bcast_S_S800000 (constantI S_ 32 100000#32))) d)))
        (broadcastInDim S800000x128 ![0, 1] bcast_S800000x1_S800000x128_0_1
          (broadcastInDim S800000x1 ![0] bcast_S800000_S800000x1_0 w))))
    (broadcastInDim S100000x128 ![0, 1] bcast_S100000x1_S100000x128_0_1
      (broadcastInDim S100000x1 ![0] bcast_S100000_S100000x1_0
        (maximumf
          (Host.scatterAdd scatter_S100000_S800000x1_S800000_n_0_0_1
            (broadcastInDim S100000 ![] bcast_S_S100000 (constant (F := F) S_ .f32 0x00000000#32))
            (broadcastInDim S800000x1 ![0] bcast_S800000_S800000x1_0 s) w)
          (broadcastInDim S100000 ![] bcast_S_S100000 (constant (F := F) S_ .f32 0x2B8CBCCC#32)))))

/-- The left half of a weight matrix, transposed. -/
def leftT (W : (⟨S128x256, .f32⟩ : BufTy).Contents (Elt F)) : (⟨S128x128, .f32⟩ : BufTy).Contents (Elt F) :=
  transpose S128x128 [1, 0] (extractStridedSlice S128x128 ![0, 0] W slices_S128x256_S128x128_0_0) transposes_S128x128_S128x128_1_0

/-- The right half of a weight matrix, transposed. -/
def rightT (W : (⟨S128x256, .f32⟩ : BufTy).Contents (Elt F)) : (⟨S128x128, .f32⟩ : BufTy).Contents (Elt F) :=
  transpose S128x128 [1, 0] (extractStridedSlice S128x128 ![0, 128] W slices_S128x256_S128x128_0_128) transposes_S128x128_S128x128_1_0

/-- A bias vector as a row. -/
def asRow (b : (⟨S128, .f32⟩ : BufTy).Contents (Elt F)) : (⟨S1x128, .f32⟩ : BufTy).Contents (Elt F) :=
  shapeCast _ b shapeCasts_S128_S1x128

variable (m : (ℓ : Loc nD τ sig) → Buf (Elt F) ℓ) (ρ : Dev nD → PrngReg)

/-! ## At the first kernel's entry -/

theorem V1_arg0 (c : Dev nD) : V1 m ρ c main_arg0 = m ((c : Thread nD τ).loc main_arg0) := by
  show StableHlo.after hostOps0 (W0 m ρ c) (Proc.devRef .tc main_arg0) = _
  after_results_simp

theorem V1_v1 (c : Dev nD) : V1 m ρ c main_v1 = srcIds (m ((c : Thread nD τ).loc main_arg1)) := by
  show StableHlo.after hostOps0 (W0 m ρ c) (Proc.devRef .tc main_v1) = _
  after_results_simp
  rfl

theorem V1_v3 (c : Dev nD) : V1 m ρ c main_v3 = dstIds (m ((c : Thread nD τ).loc main_arg1)) := by
  show StableHlo.after hostOps0 (W0 m ρ c) (Proc.devRef .tc main_v3) = _
  after_results_simp
  rfl

theorem V1_arg2 (c : Dev nD) : V1 m ρ c main_arg2 = m ((c : Thread nD τ).loc main_arg2) := by
  show StableHlo.after hostOps0 (W0 m ρ c) (Proc.devRef .tc main_arg2) = _
  after_results_simp

theorem V1_arg5 (c : Dev nD) : V1 m ρ c main_arg5 = m ((c : Thread nD τ).loc main_arg5) := by
  show StableHlo.after hostOps0 (W0 m ρ c) (Proc.devRef .tc main_arg5) = _
  after_results_simp

theorem V1_arg6 (c : Dev nD) : V1 m ρ c main_arg6 = m ((c : Thread nD τ).loc main_arg6) := by
  show StableHlo.after hostOps0 (W0 m ρ c) (Proc.devRef .tc main_arg6) = _
  after_results_simp

theorem V1_v24 (c : Dev nD) : V1 m ρ c main_v24
    = neighMean (m ((c : Thread nD τ).loc main_arg0)) (srcIds (m ((c : Thread nD τ).loc main_arg1)))
        (dstIds (m ((c : Thread nD τ).loc main_arg1))) (m ((c : Thread nD τ).loc main_arg2)) := by
  show StableHlo.after hostOps0 (W0 m ρ c) (Proc.devRef .tc main_v24) = _
  after_results_simp
  rfl

theorem V1_v27 (c : Dev nD) : V1 m ρ c main_v27 = leftT (m ((c : Thread nD τ).loc main_arg3)) := by
  show StableHlo.after hostOps0 (W0 m ρ c) (Proc.devRef .tc main_v27) = _
  after_results_simp
  rfl

theorem V1_v28 (c : Dev nD) : V1 m ρ c main_v28 = rightT (m ((c : Thread nD τ).loc main_arg3)) := by
  show StableHlo.after hostOps0 (W0 m ρ c) (Proc.devRef .tc main_v28) = _
  after_results_simp
  rfl

theorem V1_v29 (c : Dev nD) : V1 m ρ c main_v29 = asRow (m ((c : Thread nD τ).loc main_arg4)) := by
  show StableHlo.after hostOps0 (W0 m ρ c) (Proc.devRef .tc main_v29) = _
  after_results_simp
  rfl

/-! ## At the second kernel's entry, from the contents at the first kernel's exit -/

theorem V3_v30 (c : Dev nD) : V3 m ρ c main_v30 = W2 m ρ c (Proc.devRef .tc main_v30) := by
  show StableHlo.after hostOps1 (W2 m ρ c) (Proc.devRef .tc main_v30) = _
  after_results_simp

theorem V3_v51 (c : Dev nD) : V3 m ρ c main_v51
    = neighMean (W2 m ρ c (Proc.devRef .tc main_v30)) (W2 m ρ c (Proc.devRef .tc main_v1))
        (W2 m ρ c (Proc.devRef .tc main_v3)) (W2 m ρ c (Proc.devRef .tc main_arg2)) := by
  show StableHlo.after hostOps1 (W2 m ρ c) (Proc.devRef .tc main_v51) = _
  after_results_simp
  rfl

theorem V3_v54 (c : Dev nD) : V3 m ρ c main_v54 = leftT (W2 m ρ c (Proc.devRef .tc main_arg5)) := by
  show StableHlo.after hostOps1 (W2 m ρ c) (Proc.devRef .tc main_v54) = _
  after_results_simp
  rfl

theorem V3_v55 (c : Dev nD) : V3 m ρ c main_v55 = rightT (W2 m ρ c (Proc.devRef .tc main_arg5)) := by
  show StableHlo.after hostOps1 (W2 m ρ c) (Proc.devRef .tc main_v55) = _
  after_results_simp
  rfl

theorem V3_v56 (c : Dev nD) : V3 m ρ c main_v56 = asRow (W2 m ρ c (Proc.devRef .tc main_arg6)) := by
  show StableHlo.after hostOps1 (W2 m ρ c) (Proc.devRef .tc main_v56) = _
  after_results_simp
  rfl

/-- A buffer that is no array of the first kernel's windows holds at its exit what it held at its entry. -/
theorem W2_v1 (c : Dev nD) : W2 m ρ c (Proc.devRef .tc main_v1) = V1 m ρ c main_v1 := W2_of_ne m ρ c main_v1 (by decide)
theorem W2_v3 (c : Dev nD) : W2 m ρ c (Proc.devRef .tc main_v3) = V1 m ρ c main_v3 := W2_of_ne m ρ c main_v3 (by decide)
theorem W2_arg2 (c : Dev nD) : W2 m ρ c (Proc.devRef .tc main_arg2) = V1 m ρ c main_arg2 := W2_of_ne m ρ c main_arg2 (by decide)
theorem W2_arg5 (c : Dev nD) : W2 m ρ c (Proc.devRef .tc main_arg5) = V1 m ρ c main_arg5 := W2_of_ne m ρ c main_arg5 (by decide)
theorem W2_arg6 (c : Dev nD) : W2 m ρ c (Proc.devRef .tc main_arg6) = V1 m ρ c main_arg6 := W2_of_ne m ρ c main_arg6 (by decide)

end Cert.KernelIdeal.HostSide

end
-- ==== Proof.LayerBridge.lean ====
/-
  The kernel's layer on prepared operands is the layer on the original weight matrix and bias.

  Before each kernel the weight matrix `W : [128, 256]` is cut into its left and right `[128, 128]` halves, each half
  is transposed, and the bias `b : [128]` is reshaped to a `[1, 128]` row. Entry `(k, q)` of the transposed left
  half is `W (q, k)`, of the transposed right half `W (q, 128 + k)`, and entry `(0, q)` of the row is `b q`; so
  the kernel's `blockLayer` on these operands is `SageSpec.layer` on `W` and `b`, term by term.
-/
import proofs.«100640_j50766513439458_1_alg».proof.Proof.KernelPayload
import Idealize.ShloMosaic.Lib.ValueIdx
import Idealize.ShloMosaic.Lib.ValueLayout
import Idealize.ShloMosaic.Lib.Pipeline.Value

noncomputable section

namespace Cert.LayerBridge

open Idealize.ShloMosaic Idealize.ShloMosaic.ValueIdx Cert.SageSpec Cert.KernelIdeal.Body

theorem blockLayer_prepared {M : ℕ} (h n : (⟨2, ![M, 128]⟩ : Shape).Idx → EReal) (W : (⟨2, ![128, 256]⟩ : Shape).Idx → EReal)
    (b : (⟨1, ![128]⟩ : Shape).Idx → EReal)
    (hs0 : (⟨2, ![128, 256]⟩ : Shape).Slices ![0, 0] ⟨2, ![128, 128]⟩)
    (hs1 : (⟨2, ![128, 256]⟩ : Shape).Slices ![0, 128] ⟨2, ![128, 128]⟩)
    (ht : (⟨2, ![128, 128]⟩ : Shape).Transposes [1, 0] ⟨2, ![128, 128]⟩)
    (hb : (⟨1, ![128]⟩ : Shape).ShapeCasts ⟨2, ![1, 128]⟩) :
    blockLayer h n
        (transpose ⟨2, ![128, 128]⟩ [1, 0] (extractStridedSlice ⟨2, ![128, 128]⟩ ![0, 0] W hs0) ht)
        (transpose ⟨2, ![128, 128]⟩ [1, 0] (extractStridedSlice ⟨2, ![128, 128]⟩ ![0, 128] W hs1) ht)
        (shapeCast ⟨2, ![1, 128]⟩ b hb)
      = layer h n W b := by
  funext j
  obtain ⟨p, q, rfl⟩ : ∃ (p : Fin M) (q : Fin 128), j = ix2 p q := ⟨j 0, j 1, eq_ix2 j⟩
  rw [blockLayer_apply, layer_apply]
  refine congrArg₂ max (congrArg₂ (· + ·) (congrArg₂ (· + ·) (Finset.sum_congr rfl fun k _ => ?_) (Finset.sum_congr rfl fun k _ => ?_)) ?_) rfl
  · rw [transpose_ix2_apply, slice2_axis1_apply 0 W hs0 q k (lo k) (by show k.val = 0 + k.val; omega)]
  · rw [transpose_ix2_apply, slice2_axis1_apply 128 W hs1 q k (hi k) rfl]
  · exact shapeCast_a_1a_apply b hb (0 : Fin 1) q

end Cert.LayerBridge

end
-- ==== Proof.KernelValue.lean ====
/-
  The idealized kernel program's result as the specification's function of its arguments.

  The first kernel's output array is `blockLayer` of the arrays its windows are over (KernelBlocks); those arrays are
  the features, their neighbour mean, the two transposed halves of `W1` and `b1` as a row (KernelHost), and on such
  operands `blockLayer` is `SageSpec.layer` (LayerBridge): the first layer `H`. The second kernel reads `H`, the
  neighbour mean the host forms from `H` with the same operations, and the prepared `W2`, `b2`; its output array is
  the second layer with its rows normalised, which is the program's result.
-/
import proofs.«100640_j50766513439458_1_alg».proof.Proof.KernelBlocks
import proofs.«100640_j50766513439458_1_alg».proof.Proof.KernelHost
import proofs.«100640_j50766513439458_1_alg».proof.Proof.LayerBridge

set_option maxRecDepth 16384

noncomputable section

namespace Cert.KernelIdeal.KValue

open Cert.KernelIdeal Cert.KernelIdeal.Gen Cert.KernelIdeal.Blocks Cert.KernelIdeal.HostSide Cert.KernelIdeal.Body
open Idealize.ShloMosaic Idealize.ShloMosaic.TcCoe Idealize.SL.Sem Cert.SageSpec

/-- Both layers and the normalisation, with the neighbour means formed by the host operations. -/
def spec (x : (⟨S100000x128, .f32⟩ : BufTy).Contents (Elt Ideal)) (ei : (⟨S2x800000, .i32⟩ : BufTy).Contents (Elt Ideal))
    (w : (⟨S800000, .f32⟩ : BufTy).Contents (Elt Ideal)) (W1 : (⟨S128x256, .f32⟩ : BufTy).Contents (Elt Ideal))
    (b1 : (⟨S128, .f32⟩ : BufTy).Contents (Elt Ideal)) (W2 : (⟨S128x256, .f32⟩ : BufTy).Contents (Elt Ideal))
    (b2 : (⟨S128, .f32⟩ : BufTy).Contents (Elt Ideal)) : (⟨S100000x128, .f32⟩ : BufTy).Contents (Elt Ideal) :=
  unitRows (M := 100000)
    (layer (M := 100000) (layer (M := 100000) x (neighMean (F := Ideal) x (srcIds ei) (dstIds ei) w) W1 b1)
      (neighMean (F := Ideal) (layer (M := 100000) x (neighMean (F := Ideal) x (srcIds ei) (dstIds ei) w) W1 b1) (srcIds ei) (dstIds ei) w)
      W2 b2)

variable (m : (ℓ : Loc nD τ sig) → Buf (Elt Ideal) ℓ) (ρ : Dev nD → PrngReg)

/-- After the first kernel its output array holds the first layer. -/
theorem first_layer (c : Dev nD) :
    W2 m ρ c (Proc.devRef .tc main_v30)
      = layer (M := 100000) (m ((c : Thread nD τ).loc main_arg0))
          (neighMean (F := Ideal) (m ((c : Thread nD τ).loc main_arg0)) (srcIds (m ((c : Thread nD τ).loc main_arg1)))
            (dstIds (m ((c : Thread nD τ).loc main_arg1))) (m ((c : Thread nD τ).loc main_arg2)))
          (m ((c : Thread nD τ).loc main_arg3)) (m ((c : Thread nD τ).loc main_arg4)) := by
  refine (W2_arr m ρ c 5).trans ((final0 (V1 m ρ) c).trans ?_)
  unfold out0
  rw [V1_arg0, V1_v24, V1_v27, V1_v28, V1_v29]
  unfold leftT rightT asRow
  exact Cert.LayerBridge.blockLayer_prepared (M := 100000) _ _ _ _ slices_S128x256_S128x128_0_0 slices_S128x256_S128x128_0_128
    transposes_S128x128_S128x128_1_0 shapeCasts_S128_S1x128

/-- After the second kernel the result array holds the specification's function of the arguments. -/
theorem result (c : Dev nD) :
    W4 m ρ c (Proc.devRef .tc main_v57)
      = spec (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (W4_arr m ρ c 5).trans ((final1 (V3 m ρ) c).trans ?_)
  unfold out1 spec
  rw [V3_v30, V3_v51, V3_v54, V3_v55, V3_v56, W2_v1, W2_v3, W2_arg2, W2_arg5, W2_arg6, V1_v1, V1_v3, V1_arg2, V1_arg5, V1_arg6,
    first_layer]
  unfold leftT rightT asRow
  rw [Cert.LayerBridge.blockLayer_prepared (M := 100000) _ _ _ _ slices_S128x256_S128x128_0_0 slices_S128x256_S128x128_0_128
    transposes_S128x128_S128x128_1_0 shapeCasts_S128_S1x128]

end Cert.KernelIdeal.KValue

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.HostForms.lean ====
/-
  The same layer and the same row normalisation as plain array programs spell them, entry by entry.

  A plain array program forms one layer by joining the features and the neighbour means side by side into
  `[M, 256]`, multiplying by the transposed `[256, 128]` weight matrix, adding the bias spread over the rows and
  cutting at zero. At `(p, q)` the product is a sum over 256 positions; the first 128 read the features against
  columns `0 … 127` of row `q` of the weights, the last 128 read the neighbour means against columns `128 … 255`:
  `SageSpec.layer`. The normalisation keeps the row sums of squares as an `[M, 1]` column, takes its root, raises
  it to the small constant and spreads it back: `SageSpec.unitRows` (the sum starts from the zero word, which is 0).
-/
import proofs.«100640_j50766513439458_1_alg».proof.Proof.SageSpec
import proofs.«100640_j50766513439458_1_alg».proof.Proof.LibPlainDot
import proofs.«100640_j50766513439458_1_alg».proof.Proof.LibDense
import proofs.«100640_j50766513439458_1_alg».proof.Proof.LibRowReduce
import proofs.«100640_j50766513439458_1_alg».proof.Proof.LibRegionBlockSpread
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.HostForms

open Idealize.ShloMosaic Idealize.ShloMosaic.ValueIdx Cert.SageSpec

/-- Features and neighbour means joined side by side, at a column of the first half: the features. -/
theorem joined_lo {M : ℕ} (h n : (⟨2, ![M, 128]⟩ : Shape).Idx → EReal)
    (hc : Shape.Concatenates [(⟨2, ![M, 128]⟩ : Shape), ⟨2, ![M, 128]⟩] ⟨2, ![M, 256]⟩ 1) (p : Fin M) (k : Fin 128) :
    concatenate ⟨2, ![M, 256]⟩ 1 [⟨⟨2, ![M, 128]⟩, h⟩, ⟨⟨2, ![M, 128]⟩, n⟩] hc (ix2 p (lo k)) = h (ix2 p k) :=
  concatenate_pair_apply_left (t := ⟨2, ![M, 256]⟩) 1 h n hc (ix2 p (lo k)) rfl (ix2 p k) fun b => by
    match b with
    | ⟨0, _⟩ => rfl
    | ⟨1, _⟩ => rfl

/-- … at a column of the second half: the neighbour means. -/
theorem joined_hi {M : ℕ} (h n : (⟨2, ![M, 128]⟩ : Shape).Idx → EReal)
    (hc : Shape.Concatenates [(⟨2, ![M, 128]⟩ : Shape), ⟨2, ![M, 128]⟩] ⟨2, ![M, 256]⟩ 1) (p : Fin M) (k : Fin 128) :
    concatenate ⟨2, ![M, 256]⟩ 1 [⟨⟨2, ![M, 128]⟩, h⟩, ⟨⟨2, ![M, 128]⟩, n⟩] hc (ix2 p (hi k)) = n (ix2 p k) :=
  concatenate_pair_apply_right (t := ⟨2, ![M, 256]⟩) 1 h n hc (ix2 p (hi k)) rfl rfl (ix2 p k)
    (fun b hb => by
      match b with
      | ⟨0, _⟩ => rfl
      | ⟨1, _⟩ => exact absurd rfl hb)
    (by show k.val + 128 = 128 + k.val; omega)

/-- The layer as a plain array program spells it. -/
theorem hostLayer_eq {M : ℕ} (h n : FVec Ideal ⟨2, ![M, 128]⟩ .f32) (W : FVec Ideal ⟨2, ![128, 256]⟩ .f32)
    (b : FVec Ideal ⟨1, ![128]⟩ .f32)
    (hc : Shape.Concatenates [(⟨2, ![M, 128]⟩ : Shape), ⟨2, ![M, 128]⟩] ⟨2, ![M, 256]⟩ 1)
    (ht : (⟨2, ![128, 256]⟩ : Shape).Transposes [1, 0] ⟨2, ![256, 128]⟩)
    (d : DotDims ⟨2, ![M, 256]⟩ ⟨2, ![256, 128]⟩ ⟨2, ![M, 128]⟩) (hd : d = DotDims.plain M 256 128)
    (h1 : (⟨1, ![128]⟩ : Shape).BroadcastsInDim ⟨2, ![1, 128]⟩ ![1])
    (h2 : (⟨2, ![1, 128]⟩ : Shape).BroadcastsInDim ⟨2, ![M, 128]⟩ ![0, 1])
    (h0 : (⟨0, ![]⟩ : Shape).BroadcastsInDim ⟨2, ![M, 128]⟩ ![]) :
    maximumf (addf (Host.dotGeneral d none
          (concatenate ⟨2, ![M, 256]⟩ 1 [⟨⟨2, ![M, 128]⟩, h⟩, ⟨⟨2, ![M, 128]⟩, n⟩] hc)
          (transpose ⟨2, ![256, 128]⟩ [1, 0] W ht))
        (broadcastInDim ⟨2, ![M, 128]⟩ ![0, 1] h2 (broadcastInDim ⟨2, ![1, 128]⟩ ![1] h1 b)))
      (broadcastInDim ⟨2, ![M, 128]⟩ ![] h0 (constant (F := Ideal) ⟨0, ![]⟩ .f32 0x00000000#32))
      = layer h n W b := by
  funext j
  obtain ⟨p, q, rfl⟩ : ∃ (p : Fin M) (q : Fin 128), j = ix2 p q := ⟨j 0, j 1, eq_ix2 j⟩
  rw [layer_apply, maximumf_apply, addf_apply]
  refine congrArg₂ max (congrArg₂ (· + ·) ?_ ?_) ?_
  · unfold Host.dotGeneral
    rw [PlainDot.dotGeneral_apply d hd, sum_two_halves]
    refine congrArg₂ (· + ·) (Finset.sum_congr rfl fun k _ => ?_) (Finset.sum_congr rfl fun k _ => ?_)
    · rw [joined_lo, transpose_ix2_apply]
    · rw [joined_hi, transpose_ix2_apply]
  · exact DenseLayer.inDimRow_apply b h1 h2 p q
  · exact broadcastInDim_apply (s := ⟨0, ![]⟩) ![] h0 _ (ix2 p q) (fun a => a.elim0) (fun a => a.elim0)

/-- The row normalisation as a plain array program spells it. -/
theorem hostUnitRows_eq {M : ℕ} (g : FVec Ideal ⟨2, ![M, 128]⟩ .f32)
    (hred : (⟨2, ![M, 128]⟩ : Shape).ReducesTo [1] ⟨1, ![M]⟩) (hr : (⟨2, ![M, 128]⟩ : Shape).Reduces [1] ⟨1, ![M]⟩)
    (hS : 0 < (⟨0, ![]⟩ : Shape).numel)
    (hb1 : (⟨1, ![M]⟩ : Shape).BroadcastsInDim ⟨2, ![M, 1]⟩ ![0])
    (hb0 : (⟨0, ![]⟩ : Shape).BroadcastsInDim ⟨2, ![M, 1]⟩ ![])
    (hb2 : (⟨2, ![M, 1]⟩ : Shape).BroadcastsInDim ⟨2, ![M, 128]⟩ ![0, 1]) :
    Host.divf g (broadcastInDim ⟨2, ![M, 128]⟩ ![0, 1] hb2
        (maximumf (Host.sqrt (broadcastInDim ⟨2, ![M, 1]⟩ ![0] hb1
            (Host.reduceAdd (mulf g g) (constant (F := Ideal) ⟨0, ![]⟩ .f32 0x00000000#32) hred hS)))
          (broadcastInDim ⟨2, ![M, 1]⟩ ![] hb0 (constant (F := Ideal) ⟨0, ![]⟩ .f32 0x2B8CBCCC#32))))
      = unitRows g := by
  funext j
  obtain ⟨p, q, rfl⟩ : ∃ (p : Fin M) (q : Fin 128), j = ix2 p q := ⟨j 0, j 1, eq_ix2 j⟩
  rw [unitRows_apply]
  show Ideal.div (g (ix2 p q)) _ = _
  refine congrArg (Ideal.div (g (ix2 p q))) ?_
  rw [KeepDims.broadcastInDim_a1_ab_apply, maximumf_apply]
  refine congrArg₂ max ?_ ?_
  · rw [KeepDims.hostSqrt_apply, KeepDims.broadcastInDim_a_a1_apply, RowReduce.hostReduceAdd_row _ _ hred hr hS p]
    refine congrArg Ideal.sqrt ?_
    rw [constant_apply, Ideal.ofBits_zero_f32, zero_add]
    rfl
  · exact broadcastInDim_apply (s := ⟨0, ![]⟩) ![] hb0 _ (ix2 p (0 : Fin 1)) (fun a => a.elim0) (fun a => a.elim0)

end Cert.HostForms

end
-- ==== Proof.RefValue.lean ====
/-
  The reference program's result as the specification's function of its arguments.

  The reference forms the neighbour mean with the same host operations as the kernel program (`neighMean` below is
  that composed term, not opened), applies the layer in its joined form, repeats both on the first layer's output, and
  normalises the rows. Its run's result term is, literally, `normOps (layerOps H (neighMean H …) W2 b2)` with
  `H = layerOps x (neighMean x …) W1 b1`; the joined layer is `SageSpec.layer` and the normalisation is
  `SageSpec.unitRows` (HostForms).
-/
import proofs.«100640_j50766513439458_1_alg».proof.Proof.Gen.ReferenceIdeal.Run
import proofs.«100640_j50766513439458_1_alg».proof.Proof.HostForms

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Cert.SageSpec

variable {F : FTy → Type} [FloatOps F]

/-- The source node of every edge: row 0 of the edge list. -/
def srcIds (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- The destination node of every edge: row 1 of the edge list. -/
def dstIds (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- The weighted mean of every node's neighbours, from the features, the edges' ends and the edge weights. -/
def neighMean (x : (⟨S100000x128, .f32⟩ : BufTy).Contents (Elt F)) (s d : (⟨S800000, .i32⟩ : BufTy).Contents (Elt F))
    (w : (⟨S800000, .f32⟩ : BufTy).Contents (Elt F)) : (⟨S100000x128, .f32⟩ : BufTy).Contents (Elt F) :=
  Host.divf
    (Host.scatterAdd scatter_S100000x128_S800000x1_S800000x128_1_0_0_1
      (broadcastInDim S100000x128 ![] bcast_S_S100000x128 (constant (F := F) S_ .f32 0x00000000#32))
      (broadcastInDim S800000x1 ![0] bcast_S800000_S800000x1_0 s)
      (mulf
        (Host.gather gather_S100000x128_S800000x1_S800000x128_1_0_n_n_0_1_1128 x
          (broadcastInDim S800000x1 ![0] bcast_S800000_S800000x1_0
            (select (cmpi .slt d (broadcastInDim S800000 ![] bcast_S_S800000 (constantI S_ 32 0#32)))
              (addi d (broadcastInDim S800000 ![] bcast_S_S800000 (constantI S_ 32 100000#32))) d)))
        (broadcastInDim S800000x128 ![0, 1] bcast_S800000x1_S800000x128_0_1
          (broadcastInDim S800000x1 ![0] bcast_S800000_S800000x1_0 w))))
    (broadcastInDim S100000x128 ![0, 1] bcast_S100000x1_S100000x128_0_1
      (broadcastInDim S100000x1 ![0] bcast_S100000_S100000x1_0
        (maximumf
          (Host.scatterAdd scatter_S100000_S800000x1_S800000_n_0_0_1
            (broadcastInDim S100000 ![] bcast_S_S100000 (constant (F := F) S_ .f32 0x00000000#32))
            (broadcastInDim S800000x1 ![0] bcast_S800000_S800000x1_0 s) w)
          (broadcastInDim S100000 ![] bcast_S_S100000 (constant (F := F) S_ .f32 0x2B8CBCCC#32)))))

/-- One layer in its joined form. -/
def layerOps (h n : (⟨S100000x128, .f32⟩ : BufTy).Contents (Elt F)) (W : (⟨S128x256, .f32⟩ : BufTy).Contents (Elt F))
    (b : (⟨S128, .f32⟩ : BufTy).Contents (Elt F)) : (⟨S100000x128, .f32⟩ : BufTy).Contents (Elt F) :=
  maximumf
    (addf
      (Host.dotGeneral dot_S100000x256_S256x128_S100000x128_1_0_0_1_n_n none
        (concatenate S100000x256 1 [⟨S100000x128, h⟩, ⟨S100000x128, n⟩] concatenates_S100000x128_S100000x128_S100000x256_d1)
        (transpose S256x128 [1, 0] W transposes_S128x256_S256x128_1_0))
      (broadcastInDim S100000x128 ![0, 1] bcast_S1x128_S100000x128_0_1 (broadcastInDim S1x128 ![1] bcast_S128_S1x128_1 b)))
    (broadcastInDim S100000x128 ![] bcast_S_S100000x128 (constant (F := F) S_ .f32 0x00000000#32))

/-- The row normalisation in its keep-the-column form. -/
def normOps (g : (⟨S100000x128, .f32⟩ : BufTy).Contents (Elt F)) : (⟨S100000x128, .f32⟩ : BufTy).Contents (Elt F) :=
  Host.divf g
    (broadcastInDim S100000x128 ![0, 1] bcast_S100000x1_S100000x128_0_1
      (maximumf
        (Host.sqrt (broadcastInDim S100000x1 ![0] bcast_S100000_S100000x1_0
          (Host.reduceAdd (mulf g g) (constant (F := F) S_ .f32 0x00000000#32) reducesTo_S100000x128_S100000_d1 h_S_)))
        (broadcastInDim S100000x1 ![] bcast_S_S100000x1 (constant (F := F) S_ .f32 0x2B8CBCCC#32))))

/-- The whole reference as a composition of the three pieces. -/
def refOps (x : (⟨S100000x128, .f32⟩ : BufTy).Contents (Elt F)) (ei : (⟨S2x800000, .i32⟩ : BufTy).Contents (Elt F))
    (w : (⟨S800000, .f32⟩ : BufTy).Contents (Elt F)) (W1 : (⟨S128x256, .f32⟩ : BufTy).Contents (Elt F))
    (b1 : (⟨S128, .f32⟩ : BufTy).Contents (Elt F)) (W2 : (⟨S128x256, .f32⟩ : BufTy).Contents (Elt F))
    (b2 : (⟨S128, .f32⟩ : BufTy).Contents (Elt F)) : (⟨S100000x128, .f32⟩ : BufTy).Contents (Elt F) :=
  normOps (layerOps (layerOps x (neighMean x (srcIds ei) (dstIds ei) w) W1 b1)
    (neighMean (layerOps x (neighMean x (srcIds ei) (dstIds ei) w) W1 b1) (srcIds ei) (dstIds ei) w) W2 b2)

set_option maxHeartbeats 4000000 in
/-- The run's result term is that composition. -/
theorem res_eq (m : (ℓ : Loc nD τ sig) → Buf (Elt F) ℓ) (c : Dev nD) :
    res_main_v64 m c = refOps (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  unfold res_main_v64
  rfl

theorem layerOps_eq (h n : (⟨S100000x128, .f32⟩ : BufTy).Contents (Elt Ideal)) (W : (⟨S128x256, .f32⟩ : BufTy).Contents (Elt Ideal))
    (b : (⟨S128, .f32⟩ : BufTy).Contents (Elt Ideal)) : layerOps (F := Ideal) h n W b = layer (M := 100000) h n W b :=
  Cert.HostForms.hostLayer_eq (M := 100000) h n W b concatenates_S100000x128_S100000x128_S100000x256_d1
    transposes_S128x256_S256x128_1_0 dot_S100000x256_S256x128_S100000x128_1_0_0_1_n_n rfl bcast_S128_S1x128_1
    bcast_S1x128_S100000x128_0_1 bcast_S_S100000x128

theorem normOps_eq (g : (⟨S100000x128, .f32⟩ : BufTy).Contents (Elt Ideal)) : normOps (F := Ideal) g = unitRows (M := 100000) g :=
  Cert.HostForms.hostUnitRows_eq (M := 100000) g reducesTo_S100000x128_S100000_d1 (by decide) h_S_
    bcast_S100000_S100000x1_0 bcast_S_S100000x1 bcast_S100000x1_S100000x128_0_1

end Cert.ReferenceIdeal.RefValue

end
-- ==== Proof.lean ====
/-
  A two-layer neighbourhood-averaging network with row normalisation: the kernel program equals its reference over
  the extended reals.

  Both programs compute, for node features `x : [100000, 128]`, an edge list, edge weights, and per layer a weight
  matrix `W : [128, 256]` and a bias `b : [128]`,

      H   = layer x (neighMean x) W1 b1,
      out = unitRows (layer H (neighMean H) W2 b2),

  where `neighMean` is the weighted mean of each node's neighbours (formed by the same host operations in both
  programs, and never opened), `layer h n W b (p, q) = max (∑ₖ h (p,k)·W (q,k) + ∑ₖ n (p,k)·W (q,128+k) + b q) 0` and
  `unitRows` divides each row by the larger of its Euclidean length and a small constant (Proof/SageSpec.lean).

  The reference joins `h` and `n` into `[100000, 256]` and multiplies by the transposed `W`; the kernel program
  multiplies `h` by the transposed left half of `W` and `n` by the transposed right half inside a kernel that works
  on blocks of 5000 rows. The two agree because a sum over 256 positions is the sum over its two halves — a law of
  any commutative monoid, so no finiteness of the inputs is used — and because each output row depends on the same
  row of the inputs only, so the 20 row blocks piece together into one function of the whole arrays
  (Proof/KernelBlocks.lean). A change of float format is the identity on extended reals.

  The three frame claims: the two kernel programs by their generated frame certificates, the reference by its
  generated run with the result dropped. The idealization rewrote nothing, so `preserves` is trivial.
-/
import proofs.«100640_j50766513439458_1_alg».proof.Defs
import proofs.«100640_j50766513439458_1_alg».proof.Proof.Gen.Kernel
import proofs.«100640_j50766513439458_1_alg».proof.Proof.Gen.Kernel.Frame
import proofs.«100640_j50766513439458_1_alg».proof.Proof.Gen.KernelIdeal
import proofs.«100640_j50766513439458_1_alg».proof.Proof.Gen.KernelIdeal.Frame
import proofs.«100640_j50766513439458_1_alg».proof.Proof.Gen.ReferenceIdeal
import proofs.«100640_j50766513439458_1_alg».proof.Proof.Gen.Pre_finite_inputs
import proofs.«100640_j50766513439458_1_alg».proof.Proof.Gen.ReferenceIdeal.Run
import proofs.«100640_j50766513439458_1_alg».proof.Proof.KernelRun
import proofs.«100640_j50766513439458_1_alg».proof.Proof.KernelValue
import proofs.«100640_j50766513439458_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-! ## The two programs name the same host operations -/

theorem srcIds_eq (ei : (⟨Cert.ReferenceIdeal.S2x800000, .i32⟩ : BufTy).Contents (Elt Ideal)) :
    Cert.ReferenceIdeal.RefValue.srcIds (F := Ideal) ei = Cert.KernelIdeal.HostSide.srcIds (F := Ideal) ei := rfl

theorem dstIds_eq (ei : (⟨Cert.ReferenceIdeal.S2x800000, .i32⟩ : BufTy).Contents (Elt Ideal)) :
    Cert.ReferenceIdeal.RefValue.dstIds (F := Ideal) ei = Cert.KernelIdeal.HostSide.dstIds (F := Ideal) ei := rfl

theorem neighMean_eq (x : (⟨Cert.ReferenceIdeal.S100000x128, .f32⟩ : BufTy).Contents (Elt Ideal))
    (s d : (⟨Cert.ReferenceIdeal.S800000, .i32⟩ : BufTy).Contents (Elt Ideal))
    (w : (⟨Cert.ReferenceIdeal.S800000, .f32⟩ : BufTy).Contents (Elt Ideal)) :
    Cert.ReferenceIdeal.RefValue.neighMean (F := Ideal) x s d w = Cert.KernelIdeal.HostSide.neighMean (F := Ideal) x s d w := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- Both idealized programs end with the specification's function of the (agreeing) arguments in their result. -/
theorem algebraic : Cert.algebraic_KernelIdeal_ReferenceIdeal := by
  intro m ρ m' ρ' _ hagree
  refine ⟨fun c => Cert.KernelIdeal.KValue.spec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KValue.result m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq]
    unfold Cert.ReferenceIdeal.RefValue.refOps
    rw [Cert.ReferenceIdeal.RefValue.normOps_eq, Cert.ReferenceIdeal.RefValue.layerOps_eq,
      Cert.ReferenceIdeal.RefValue.layerOps_eq, neighMean_eq, neighMean_eq, srcIds_eq, dstIds_eq,
      (hagree c).1, (hagree c).2.1, (hagree c).2.2.1, (hagree c).2.2.2.1, (hagree c).2.2.2.2.1,
      (hagree c).2.2.2.2.2.1, (hagree c).2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
